-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S4096 : Shape := ⟨1, ![4096]⟩
abbrev S64x64 : Shape := ⟨2, ![64, 64]⟩
abbrev S64x4 : Shape := ⟨2, ![64, 4]⟩
abbrev S4x64 : Shape := ⟨2, ![4, 64]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S64x64 : S_.BroadcastsInDim S64x64 (![] : Fin 0 → Fin S64x64.rank)
  reducesTo_S64x64_S_d0_1 : S64x64.ReducesTo [0, 1] S_
  bcast_S_S64x4 : S_.BroadcastsInDim S64x4 (![] : Fin 0 → Fin S64x4.rank)
  reducesTo_S64x4_S_d0_1 : S64x4.ReducesTo [0, 1] S_
  bcast_S_S4x64 : S_.BroadcastsInDim S4x64 (![] : Fin 0 → Fin S4x64.rank)
  reducesTo_S4x64_S_d0_1 : S4x64.ReducesTo [0, 1] S_

variable [Facts]

def fn_part1 {F : FTy → Type} [FloatOps F] (main_arg4 : FVec F S64x4 .f32) (main_arg5 : FVec F S4x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x4 .f32 := Host.absf main_arg4
  let main_cst_6 : FVec F S_ .f32 := constant S_ .f32 0x7F800000#32
  let main_v20 : FVec F S64x4 .f32 := broadcastInDim S64x4 ![] bcast_S_S64x4 main_cst_6
  let main_v21 : IVec S64x4 1 := cmpf .olt main_v19 main_v20
  let main_c_7 : IVec S_ 1 := constantI S_ 1 1#1
  let main_v22 : IVec S_ 1 := (fun x v => Host.reduce IntOp.andi x v reducesTo_S64x4_S_d0_1 h_S_) main_v21 main_c_7
  let main_v23 : IVec S_ 1 := andi main_v18 main_v22
  let main_v24 : FVec F S4x64 .f32 := Host.absf main_arg5
  let main_cst_8 : FVec F S_ .f32 := constant S_ .f32 0x7F800000#32
  let main_v25 : FVec F S4x64 .f32 := broadcastInDim S4x64 ![] bcast_S_S4x64 main_cst_8
  let main_v26 : IVec S4x64 1 := cmpf .olt main_v24 main_v25
  let main_c_9 : IVec S_ 1 := constantI S_ 1 1#1
  let main_v27 : IVec S_ 1 := (fun x v => Host.reduce IntOp.andi x v reducesTo_S4x64_S_d0_1 h_S_) main_v26 main_c_9
  let main_v28 : IVec S_ 1 := andi main_v23 main_v27
  main_v28

def fn {F : FTy → Type} [FloatOps F] (main_arg0 : FVec F S4x4096x4096 .f32) (main_arg1 : FVec F S4096x4096 .f32) (main_arg2 : FVec F S4096 .f32) (main_arg3 : FVec F S64x64 .f32) (main_arg4 : FVec F S64x4 .f32) (main_arg5 : FVec F S4x64 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_v13 main_v16
-- ==== Kernel.lean ====
abbrev S4x4096x4096 : Shape := ⟨3, ![4, 4096, 4096]⟩
abbrev S4096x4096 : Shape := ⟨2, ![4096, 4096]⟩
abbrev S4096 : Shape := ⟨1, ![4096]⟩
abbrev S64x64 : Shape := ⟨2, ![64, 64]⟩
abbrev S64x4 : Shape := ⟨2, ![64, 4]⟩
abbrev S4x64 : Shape := ⟨2, ![4, 64]⟩
abbrev S64x1x64x1 : Shape := ⟨4, ![64, 1, 64, 1]⟩
abbrev S1x64x1x64 : Shape := ⟨4, ![1, 64, 1, 64]⟩
abbrev S64x64x64x64 : Shape := ⟨4, ![64, 64, 64, 64]⟩
abbrev S_ : Shape := ⟨0, ![]⟩
abbrev S16384x4096 : Shape := ⟨2, ![16384, 4096]⟩
abbrev S1x4096 : Shape := ⟨2, ![1, 4096]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 23
  | .vmem => 8
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S64x64, .f32⟩
  | .hbm, ⟨4, _⟩ => ⟨S64x4, .f32⟩
  | .hbm, ⟨5, _⟩ => ⟨S4x64, .f32⟩
  | .hbm, ⟨6, _⟩ => ⟨S64x64, .f32⟩
  | .hbm, ⟨7, _⟩ => ⟨S64x1x64x1, .f32⟩
  | .hbm, ⟨8, _⟩ => ⟨S1x64x1x64, .f32⟩
  | .hbm, ⟨9, _⟩ => ⟨S64x64x64x64, .f32⟩
  | .hbm, ⟨10, _⟩ => ⟨S64x64x64x64, .f32⟩
  | .hbm, ⟨11, _⟩ => ⟨S64x64x64x64, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S16384x4096, .f32⟩
  | .hbm, ⟨18, _⟩ => ⟨S16384x4096, .bf16⟩
  | .hbm, ⟨19, _⟩ => ⟨S4096x4096, .bf16⟩
  | .hbm, ⟨20, _⟩ => ⟨S1x4096, .f32⟩
  | .hbm, ⟨21, _⟩ => ⟨S16384x4096, .f32⟩
  | .hbm, ⟨22, _⟩ => ⟨S4x4096x4096, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_v0 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S64x64_S64x1x64x1_0_2 : S64x64.BroadcastsInDim S64x1x64x1 (![0, 2] : Fin 2 → Fin S64x1x64x1.rank)
  bcast_S64x64_S1x64x1x64_1_3 : S64x64.BroadcastsInDim S1x64x1x64 (![1, 3] : Fin 2 → Fin S1x64x1x64.rank)
  bcast_S64x1x64x1_S64x64x64x64_0_1_2_3 : S64x1x64x1.BroadcastsInDim S64x64x64x64 (![0, 1, 2, 3] : Fin 4 → Fin S64x64x64x64.rank)
  bcast_S1x64x1x64_S64x64x64x64_0_1_2_3 : S1x64x1x64.BroadcastsInDim S64x64x64x64 (![0, 1, 2, 3] : Fin 4 → Fin S64x64x64x64.rank)
  shapeCasts_S64x64x64x64_S4096x4096 : S64x64x64x64.ShapeCasts S4096x4096
  bcast_S_S4096x4096 : S_.BroadcastsInDim S4096x4096 (![] : Fin 0 → Fin S4096x4096.rank)
  shapeCasts_S4x4096x4096_S16384x4096 : S4x4096x4096.ShapeCasts S16384x4096
  bitsLt_bf16_f32 : FTy.bits .bf16 < FTy.bits .f32
  shapeCasts_S4096_S1x4096 : S4096.ShapeCasts S1x4096
  shapeCasts_S16384x4096_S4x4096x4096 : S16384x4096.ShapeCasts S4x4096x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S64x4_S4x64_S64x64_1_0_0_1_n_n_wf : DotDims.WF S64x4 S4x64 S64x64 [1] [0] [0] [1] [] []
  dot_S2048x1024_S1024x1024_S2048x1024_1_1_0_0_n_n_wf : DotDims.WF S2048x1024 S1024x1024 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x4096.size a
  hwx0_0 : ∀ i : grid0.Coords, EltTy.bits .bf16 = 32 ∨ (Rect.block (s := S16384x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S16384x4096.size a
  hwx0_3 : ∀ i : grid0.Coords, EltTy.bits .f32 = 32 ∨ (Rect.block (s := S16384x4096) S2048x1024.size (cc0_transform_3 i) (hinb0_3 i)).WholeWords (EltTy.packing .f32)

variable [Facts₀]

def dot_S64x4_S4x64_S64x64_1_0_0_1_n_n : DotDims S64x4 S4x64 S64x64 where
  lhsContracting := [1]
  rhsContracting := [0]
  lhsNonContracting := [0]
  rhsNonContracting := [1]
  lhsBatch := []
  rhsBatch := []
  wf := dot_S64x4_S4x64_S64x64_1_0_0_1_n_n_wf
def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf

abbrev win0_0 : Pipeline.Window sig grid0 :=
  Pipeline.Window.ofSpec (Memref.whole main_call0_v6) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v7) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v8) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v9) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S4096x4096 : Shape := ⟨2, ![4096, 4096]⟩
abbrev S4096 : Shape := ⟨1, ![4096]⟩
abbrev S64x64 : Shape := ⟨2, ![64, 64]⟩
abbrev S64x4 : Shape := ⟨2, ![64, 4]⟩
abbrev S4x64 : Shape := ⟨2, ![4, 64]⟩
abbrev S1x1x4096 : Shape := ⟨3, ![1, 1, 4096]⟩
abbrev S64x1x64x1 : Shape := ⟨4, ![64, 1, 64, 1]⟩
abbrev S1x64x1x64 : Shape := ⟨4, ![1, 64, 1, 64]⟩
abbrev S64x64x64x64 : Shape := ⟨4, ![64, 64, 64, 64]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S64x64, .f32⟩
  | .hbm, ⟨4, _⟩ => ⟨S64x4, .f32⟩
  | .hbm, ⟨5, _⟩ => ⟨S4x64, .f32⟩
  | .hbm, ⟨6, _⟩ => ⟨S4x4096x4096, .f32⟩
  | .hbm, ⟨7, _⟩ => ⟨S1x1x4096, .f32⟩
  | .hbm, ⟨8, _⟩ => ⟨S4x4096x4096, .f32⟩
  | .hbm, ⟨9, _⟩ => ⟨S4x4096x4096, .f32⟩
  | .hbm, ⟨10, _⟩ => ⟨S64x64, .f32⟩
  | .hbm, ⟨11, _⟩ => ⟨S64x1x64x1, .f32⟩
  | .hbm, ⟨12, _⟩ => ⟨S1x64x1x64, .f32⟩
  | .hbm, ⟨13, _⟩ => ⟨S64x64x64x64, .f32⟩
  | .hbm, ⟨14, _⟩ => ⟨S64x64x64x64, .f32⟩
  | .hbm, ⟨15, _⟩ => ⟨S64x64x64x64, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4x4096x4096, .f32⟩
  | .hbm, ⟨21, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  bcast_S64x64_S64x1x64x1_0_2 : S64x64.BroadcastsInDim S64x1x64x1 (![0, 2] : Fin 2 → Fin S64x1x64x1.rank)
  bcast_S64x64_S1x64x1x64_1_3 : S64x64.BroadcastsInDim S1x64x1x64 (![1, 3] : Fin 2 → Fin S1x64x1x64.rank)
  bcast_S64x1x64x1_S64x64x64x64_0_1_2_3 : S64x1x64x1.BroadcastsInDim S64x64x64x64 (![0, 1, 2, 3] : Fin 4 → Fin S64x64x64x64.rank)
  bcast_S1x64x1x64_S64x64x64x64_0_1_2_3 : S1x64x1x64.BroadcastsInDim S64x64x64x64 (![0, 1, 2, 3] : Fin 4 → Fin S64x64x64x64.rank)
  shapeCasts_S64x64x64x64_S4096x4096 : S64x64x64x64.ShapeCasts S4096x4096
  bcast_S_S4096x4096 : S_.BroadcastsInDim S4096x4096 (![] : Fin 0 → Fin S4096x4096.rank)
  dot_S4x4096x4096_S4096x4096_S4x4096x4096_2_1_01_0_n_n_wf : DotDims.WF S4x4096x4096 S4096x4096 S4x4096x4096 [2] [1] [0, 1] [0] [] []
  dot_S64x4_S4x64_S64x64_1_0_0_1_n_n_wf : DotDims.WF S64x4 S4x64 S64x64 [1] [0] [0] [1] [] []

variable [Facts₀]

def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf
def dot_S64x4_S4x64_S64x64_1_0_0_1_n_n : DotDims S64x4 S4x64 S64x64 where
  lhsContracting := [1]
  rhsContracting := [0]
  lhsNonContracting := [0]
  rhsNonContracting := [1]
  lhsBatch := []
  rhsBatch := []
  wf := dot_S64x4_S4x64_S64x64_1_0_0_1_n_n_wf

class Facts : Prop extends Facts₀ where

variable [Facts]
-- ==== Proof.AccPieces.lean ====
/-
  What each of the three control cases of the matmul body leaves in the output block's staging buffer, as pure
  values of the blocks it was called with.  Writing a for the [2048,1024] block of the left operand, w for the
  [1024,1024] block of the right operand (both share the contracted axis as their last axis), bias for the
  [1,1024] bias block, and prev for what the staging buffer held before:

    first step of the contraction   (k = 0):  0 + a·wᵀ       -- the buffer is zeroed, read back, and accumulated into
    a middle step                   (0 < k < 3):  prev + a·wᵀ
    the last step                   (k = 3):  (prev + a·wᵀ) + bias   -- the bias row is added to every row

  Each is the canonical reading of the covering stores the body's run found: the last store covers the whole
  block, and a load that follows a covering store reads that store's value.
-/
import proofs.«126632_j86646670229807_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

/-- The zero offsets of a whole-block access. -/
theorem hz : (![0, 0] : Fin 2 → Nat) = fun _ => 0 := funext fun a => by fin_cases a <;> rfl

/-- A middle step leaves prev + a·wᵀ: its one covering store's value, the loads reading the whole buffers. -/
theorem piece_mid (c : Dev nD) (i : grid0.Coords) (a3 : Memref sig .tc .vmem S2048x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S2048x1024 .f32) (h6 : a6.IsWhole) (hc0 : ¬cond0_0 i) (hc1 : ¬cond0_1 i)
    (x0 : Vec F S2048x1024 .bf16) (x1 : Vec F S1024x1024 .bf16) (x2 : Vec F S1x1024 .f32) (xo : Vec F S2048x1024 .f32) :
    out0_B_3 c i a3 h3 a4 h4 a5 h5 a6 h6 hc0 hc1 x0 x1 x2 xo = k0_pay2 xo x0 x1 := by
  unfold out0_B_3
  rw [View.read_writes_eq_canon _ _ _ (cover0_B_3 c i a3 h3 a4 h4 a5 h5 a6 h6 hc0 hc1 x0 x1 x2 xo)]
  unfold kernelRun0_B
  dsimp only
  rw [View.canon_unit_zero hz]
  simp only [View.readAt_eq_ld, h3.read_unread, h4.read_unread, h6.read_unread,
    View.ld_unit_zero (S := S2048x1024) hz, View.ld_unit_zero (S := S1024x1024) hz]

/-- The first step leaves 0 + a·wᵀ: the zero block is stored, read back, and accumulated into. -/
theorem piece_first (c : Dev nD) (i : grid0.Coords) (a3 : Memref sig .tc .vmem S2048x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S2048x1024 .f32) (h6 : a6.IsWhole) (hc0 : cond0_0 i) (hc1 : ¬cond0_1 i)
    (x0 : Vec F S2048x1024 .bf16) (x1 : Vec F S1024x1024 .bf16) (x2 : Vec F S1x1024 .f32) :
    out0_A_3 c i a3 h3 a4 h4 a5 h5 a6 h6 hc0 hc1 x0 x1 x2 = k0_pay2 (k0_pay1 (F := F)) x0 x1 := by
  unfold out0_A_3
  rw [View.read_writes_eq_canon _ _ _ (cover0_A_3 c i a3 h3 a4 h4 a5 h5 a6 h6 hc0 hc1 x0 x1 x2)]
  unfold kernelRun0_A
  dsimp only
  sl_unfold_words
  rw [View.canon_cons_unit_zero (S := S2048x1024) hz, View.readCov_unit_zero (S := S2048x1024) _ hz]
  simp only [View.readAt_eq_ld, h3.read_unread, h4.read_unread,
    View.ld_unit_zero (S := S2048x1024) hz, View.ld_unit_zero (S := S1024x1024) hz]

/-- The last step leaves (prev + a·wᵀ) + bias: the accumulated block is stored, read back, and the bias row added. -/
theorem piece_last (c : Dev nD) (i : grid0.Coords) (a3 : Memref sig .tc .vmem S2048x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S2048x1024 .f32) (h6 : a6.IsWhole) (hc0 : ¬cond0_0 i) (hc1 : cond0_1 i)
    (x0 : Vec F S2048x1024 .bf16) (x1 : Vec F S1024x1024 .bf16) (x2 : Vec F S1x1024 .f32) (xo : Vec F S2048x1024 .f32) :
    out0_C_3 c i a3 h3 a4 h4 a5 h5 a6 h6 hc0 hc1 x0 x1 x2 xo = k0_pay3 (k0_pay2 xo x0 x1) x2 := by
  unfold out0_C_3
  rw [View.read_writes_eq_canon _ _ _ (cover0_C_3 c i a3 h3 a4 h4 a5 h5 a6 h6 hc0 hc1 x0 x1 x2 xo)]
  unfold kernelRun0_C
  dsimp only
  sl_unfold_words
  rw [View.canon_cons_unit_zero (S := S2048x1024) hz, View.readCov_unit_zero (S := S2048x1024) _ hz]
  simp only [View.readAt_eq_ld, h3.read_unread, h4.read_unread, h5.read_unread, h6.read_unread,
    View.ld_unit_zero (S := S2048x1024) hz, View.ld_unit_zero (S := S1024x1024) hz, View.ld_unit_zero (S := S1x1024) hz]

end Cert.KernelIdeal.Acc

end
-- ==== Proof.AccPayload.lean ====
/-
  The body's three stored values read at an index, over the extended reals.  For a row p of the 2048 rows and a
  column q of the 1024 columns of the output block:

    the zero block              at (p, q)  is  0
    prev + a·wᵀ                 at (p, q)  is  prev(p, q) + Σ_{k < 1024} a(p, k) · w(q, k)
    acc + bias (row broadcast)  at (p, q)  is  acc(p, q) + bias(0, q)

  The matrix product contracts the LAST axis of both blocks (the right operand is kept in its (out, in) layout), it
  is taken into a zero accumulator, and the changes of float format around it are the identity on the extended reals.
-/
import proofs.«126632_j86646670229807_2_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem

namespace Cert.KernelIdeal.Acc

open Cert.KernelIdeal Cert.KernelIdeal.Gen Idealize.ShloMosaic.ValueIdx

local notation "DD" => dot_S2048x1024_S1024x1024_S2048x1024_1_1_0_0_n_n

/-- The product's left index keeps the output's row … -/
theorem mm_lhs_0 (i : S2048x1024.Idx) (q : (dot_S2048x1024_S1024x1024_S2048x1024_1_1_0_0_n_n).contr.Idx) :
    ((dot_S2048x1024_S1024x1024_S2048x1024_1_1_0_0_n_n).lhsIdx i q 0).val = (i 0).val := by
  unfold DotDims.lhsIdx
  rw [dif_neg (show ¬(0 : Fin S2048x1024.rank) ∈ (dot_S2048x1024_S1024x1024_S2048x1024_1_1_0_0_n_n).lhsBatch by decide),
    dif_pos (show (0 : Fin S2048x1024.rank) ∈ (dot_S2048x1024_S1024x1024_S2048x1024_1_1_0_0_n_n).lhsNonContracting by decide)]
  rfl
/-- … and runs over the contracted axis in its second coordinate. -/
theorem mm_lhs_1 (i : S2048x1024.Idx) (q : (dot_S2048x1024_S1024x1024_S2048x1024_1_1_0_0_n_n).contr.Idx) :
    ((dot_S2048x1024_S1024x1024_S2048x1024_1_1_0_0_n_n).lhsIdx i q 1).val = (q ⟨0, by decide⟩).val :=
  (dot_S2048x1024_S1024x1024_S2048x1024_1_1_0_0_n_n).lhsIdx_val_of_single rfl i q
/-- The product's right index takes the output's COLUMN as its row (the right operand is (out, in)) … -/
theorem mm_rhs_0 (i : S2048x1024.Idx) (q : (dot_S2048x1024_S1024x1024_S2048x1024_1_1_0_0_n_n).contr.Idx) :
    ((dot_S2048x1024_S1024x1024_S2048x1024_1_1_0_0_n_n).rhsIdx i q 0).val = (i 1).val := by
  unfold DotDims.rhsIdx
  rw [dif_neg (show ¬(0 : Fin S1024x1024.rank) ∈ (dot_S2048x1024_S1024x1024_S2048x1024_1_1_0_0_n_n).rhsBatch by decide),
    dif_pos (show (0 : Fin S1024x1024.rank) ∈ (dot_S2048x1024_S1024x1024_S2048x1024_1_1_0_0_n_n).rhsNonContracting by decide)]
  rfl
/-- … and runs over the contracted axis in its second coordinate too. -/
theorem mm_rhs_1 (i : S2048x1024.Idx) (q : (dot_S2048x1024_S1024x1024_S2048x1024_1_1_0_0_n_n).contr.Idx) :
    ((dot_S2048x1024_S1024x1024_S2048x1024_1_1_0_0_n_n).rhsIdx i q 1).val = (q ⟨0, by decide⟩).val :=
  (dot_S2048x1024_S1024x1024_S2048x1024_1_1_0_0_n_n).rhsIdx_val_of_single rfl i q

/-- a·wᵀ into a zero accumulator, at (p, q): the sum over the shared last axis. -/
theorem mm_apply (a : FVec Ideal S2048x1024 .bf16) (w : FVec Ideal S1024x1024 .bf16) (p : Fin 2048) (q : Fin 1024) :
    matmul (F := Ideal) dot_S2048x1024_S1024x1024_S2048x1024_1_1_0_0_n_n none a w (constant S2048x1024 .f32 0x00000000#32) (ix2 p q)
      = ∑ k : Fin 1024, a (ix2 p k) * w (ix2 q k) := by
  refine (Ideal.matmul_constant_zero_apply dot_S2048x1024_S1024x1024_S2048x1024_1_1_0_0_n_n none a w (ix2 p q)).trans ?_
  rw [← Equiv.sum_comp (ValueIdx.contrEquiv1 dot_S2048x1024_S1024x1024_S2048x1024_1_1_0_0_n_n 1024 rfl rfl).symm]
  refine Finset.sum_congr rfl fun k _ => ?_
  have hk := ValueIdx.contrEquiv1_symm_val dot_S2048x1024_S1024x1024_S2048x1024_1_1_0_0_n_n 1024 rfl rfl k
  have el : (dot_S2048x1024_S1024x1024_S2048x1024_1_1_0_0_n_n).lhsIdx (ix2 p q)
      ((ValueIdx.contrEquiv1 dot_S2048x1024_S1024x1024_S2048x1024_1_1_0_0_n_n 1024 rfl rfl).symm k) = ix2 p k :=
    funext fun a => Fin.ext (by
      match a with
      | ⟨0, _⟩ => exact mm_lhs_0 _ _
      | ⟨1, _⟩ => exact (mm_lhs_1 _ _).trans hk)
  have er : (dot_S2048x1024_S1024x1024_S2048x1024_1_1_0_0_n_n).rhsIdx (ix2 p q)
      ((ValueIdx.contrEquiv1 dot_S2048x1024_S1024x1024_S2048x1024_1_1_0_0_n_n 1024 rfl rfl).symm k) = ix2 q k :=
    funext fun a => Fin.ext (by
      match a with
      | ⟨0, _⟩ => exact mm_rhs_0 _ _
      | ⟨1, _⟩ => exact (mm_rhs_1 _ _).trans hk)
  rw [el, er]

/-- The zero block is zero everywhere. -/
theorem pay1_apply (j : S2048x1024.Idx) : k0_pay1 (F := Ideal) j = 0 :=
  Ideal.ofBits_zero_f32

/-- prev + a·wᵀ at (p, q). -/
theorem pay2_apply (prev : Vec Ideal S2048x1024 .f32) (a : Vec Ideal S2048x1024 .bf16) (w : Vec Ideal S1024x1024 .bf16)
    (p : Fin 2048) (q : Fin 1024) :
    k0_pay2 (F := Ideal) prev a w (ix2 p q) = prev (ix2 p q) + ∑ k : Fin 1024, a (ix2 p k) * w (ix2 q k) := by
  unfold k0_pay2
  simp only [shapeCast_self]
  exact congrArg (prev (ix2 p q) + ·) (mm_apply a w p q)

/-- acc + the bias row, at (p, q). -/
theorem pay3_apply (acc : Vec Ideal S2048x1024 .f32) (bias : Vec Ideal S1x1024 .f32) (p : Fin 2048) (q : Fin 1024) :
    k0_pay3 (F := Ideal) acc bias (ix2 p q) = acc (ix2 p q) + bias (ix2 (0 : Fin 1) q) := by
  unfold k0_pay3
  simp only [shapeCast_self]
  refine congrArg (acc (ix2 p q) + ·) ?_
  exact broadcastTo_apply bias broadcasts_S1x1024_S2048x1024 (ix2 p q) (ix2 (0 : Fin 1) q) (fun a => by
    match a with
    | ⟨0, _⟩ => show (0 : Nat) = if (1 : Nat) = 1 then 0 else _; rw [if_pos rfl]
    | ⟨1, _⟩ => show q.val = if (1024 : Nat) = 1 then 0 else q.val; rw [if_neg (by decide)])

end Cert.KernelIdeal.Acc

end
-- ==== Proof.Spec.lean ====
/-
  The shared vocabulary of the two sides.

  The contracted axis has 4096 entries and the kernel walks it in four consecutive blocks of 1024: entry k of
  block j is entry 1024·j + k of the whole axis.  The output has 16384 = 8·2048 rows and 4096 = 4·1024 columns, walked
  in blocks of 2048 rows and 1024 columns; grid point n (of 128, the contraction innermost) works on row block
  n / 16, column block (n / 4) mod 4 and contraction block n mod 4.
-/
import Idealize.ShloMosaic.Lib.ValueIdx

namespace Cert.Hand.Spec

/-- Entry k of contraction block j, as an entry of the whole contracted axis. -/
def kIdx (j : ℕ) (k : Fin 1024) : Fin 4096 := ⟨(j % 4) * 1024 + k.val, by have := k.isLt; have := Nat.mod_lt j (by decide : 0 < 4); omega⟩

/-- Row p of the row block grid point n works on, as a row of the whole output. -/
def rowIdx (n : ℕ) (p : Fin 2048) : Fin 16384 := ⟨(n / 16 % 8) * 2048 + p.val, by have := p.isLt; have := Nat.mod_lt (n / 16) (by decide : 0 < 8); omega⟩

/-- Column q of the column block grid point n works on, as a column of the whole output. -/
def colIdx (n : ℕ) (q : Fin 1024) : Fin 4096 := ⟨(n / 4 % 4) * 1024 + q.val, by have := q.isLt; have := Nat.mod_lt (n / 4) (by decide : 0 < 4); omega⟩

@[simp] theorem kIdx_val (j : ℕ) (k : Fin 1024) : (kIdx j k).val = (j % 4) * 1024 + k.val := rfl
@[simp] theorem rowIdx_val (n : ℕ) (p : Fin 2048) : (rowIdx n p).val = (n / 16 % 8) * 2048 + p.val := rfl
@[simp] theorem colIdx_val (n : ℕ) (q : Fin 1024) : (colIdx n q).val = (n / 4 % 4) * 1024 + q.val := rfl

end Cert.Hand.Spec
-- ==== Proof.AccBlocks.lean ====
/-
  The input blocks of a grid point, read as entries of the arrays the region finds.

  Grid point n (the contraction block innermost, then the column block, then the row block) stages
    rows    2048·(n / 16) …     and contraction entries 1024·(n mod 4) … of the left operand  [16384, 4096],
    rows    1024·((n / 4) mod 4) … and contraction entries 1024·(n mod 4) … of the right operand [4096, 4096]
            (the right operand's rows are the OUTPUT's columns),
    columns 1024·((n / 4) mod 4) … of the one-row bias [1, 4096],
  and writes rows 2048·(n / 16) … and columns 1024·((n / 4) mod 4) … of the output.  A block's entry (p, k) is the
  array's entry (block row · rows per block + p, block column · columns per block + k).
-/
import proofs.«126632_j86646670229807_2_alg».proof.Proof.Gen.KernelIdeal.Frame
import proofs.«126632_j86646670229807_2_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx Cert.Hand.Spec

variable {F : FTy → Type} [FloatOps F]
variable (m : (ℓ : Loc nD τ sig) → Buf (Elt F) ℓ)

/-- Which block of each array a grid point works on: decided once over the 128 points. -/
theorem idx_lhs : ∀ t : Fin cfg0.N, win0_0.index t (0 : Fin 2) = t.val / 16 % 8 ∧ win0_0.index t (1 : Fin 2) = t.val % 4 :=
  (by decide +kernel : ∀ t : Fin grid0.N, win0_0.index t (0 : Fin 2) = t.val / 16 % 8 ∧ win0_0.index t (1 : Fin 2) = t.val % 4)
theorem idx_rhs : ∀ t : Fin cfg0.N, win0_1.index t (0 : Fin 2) = t.val / 4 % 4 ∧ win0_1.index t (1 : Fin 2) = t.val % 4 :=
  (by decide +kernel : ∀ t : Fin grid0.N, win0_1.index t (0 : Fin 2) = t.val / 4 % 4 ∧ win0_1.index t (1 : Fin 2) = t.val % 4)
theorem idx_bias : ∀ t : Fin cfg0.N, win0_2.index t (0 : Fin 2) = 0 ∧ win0_2.index t (1 : Fin 2) = t.val / 4 % 4 :=
  (by decide +kernel : ∀ t : Fin grid0.N, win0_2.index t (0 : Fin 2) = 0 ∧ win0_2.index t (1 : Fin 2) = t.val / 4 % 4)
theorem idx_out : ∀ t : Fin cfg0.N, win0_3.index t (0 : Fin 2) = t.val / 16 % 8 ∧ win0_3.index t (1 : Fin 2) = t.val / 4 % 4 :=
  (by decide +kernel : ∀ t : Fin grid0.N, win0_3.index t (0 : Fin 2) = t.val / 16 % 8 ∧ win0_3.index t (1 : Fin 2) = t.val / 4 % 4)

/-- The left operand's block at point t, entry (p, k): row rowIdx t p, contraction entry kIdx t k of the array. -/
theorem blk_lhs (c : Dev nD) (t : Fin cfg0.N) (p : Fin 2048) (k : Fin 1024) :
    (iblk m c 0 t : Vec F S2048x1024 .bf16) (ix2 p k)
      = (V m c main_call0_v6 : S16384x4096.Idx → F .bf16) (ix2 (rowIdx t.val p) (kIdx t.val k)) := by
  have hi := idx_lhs t
  unfold iblk
  rw [View.read_apply]
  show V m c main_call0_v6 _ = V m c main_call0_v6 _
  refine congrArg (V m c main_call0_v6) (funext fun a => Fin.ext ?_)
  match a with
  | ⟨0, _⟩ => show win0_0.index t 0 * 2048 + 1 * p.val = (t.val / 16 % 8) * 2048 + p.val; rw [hi.1]; omega
  | ⟨1, _⟩ => show win0_0.index t 1 * 1024 + 1 * k.val = (t.val % 4) * 1024 + k.val; rw [hi.2]; omega

/-- The right operand's block at point t, entry (q, k): row colIdx t q (an output column), contraction entry kIdx t k. -/
theorem blk_rhs (c : Dev nD) (t : Fin cfg0.N) (q : Fin 1024) (k : Fin 1024) :
    (iblk m c 1 t : Vec F S1024x1024 .bf16) (ix2 q k)
      = (V m c main_call0_v7 : S4096x4096.Idx → F .bf16) (ix2 (colIdx t.val q) (kIdx t.val k)) := by
  have hi := idx_rhs t
  unfold iblk
  rw [View.read_apply]
  show V m c main_call0_v7 _ = V m c main_call0_v7 _
  refine congrArg (V m c main_call0_v7) (funext fun a => Fin.ext ?_)
  match a with
  | ⟨0, _⟩ => show win0_1.index t 0 * 1024 + 1 * q.val = (t.val / 4 % 4) * 1024 + q.val; rw [hi.1]; omega
  | ⟨1, _⟩ => show win0_1.index t 1 * 1024 + 1 * k.val = (t.val % 4) * 1024 + k.val; rw [hi.2]; omega

/-- The bias block at point t, entry (0, q): column colIdx t q of the one-row bias. -/
theorem blk_bias (c : Dev nD) (t : Fin cfg0.N) (q : Fin 1024) :
    (iblk m c 2 t : Vec F S1x1024 .f32) (ix2 (0 : Fin 1) q)
      = (V m c main_call0_v8 : S1x4096.Idx → F .f32) (ix2 (0 : Fin 1) (colIdx t.val q)) := by
  have hi := idx_bias t
  unfold iblk
  rw [View.read_apply]
  show V m c main_call0_v8 _ = V m c main_call0_v8 _
  refine congrArg (V m c main_call0_v8) (funext fun a => Fin.ext ?_)
  match a with
  | ⟨0, _⟩ => show win0_2.index t 0 * 1 + 1 * 0 = 0; rw [hi.1]
  | ⟨1, _⟩ => show win0_2.index t 1 * 1024 + 1 * q.val = (t.val / 4 % 4) * 1024 + q.val; rw [hi.2]; omega

end Cert.KernelIdeal.Acc

end
-- ==== Proof.AccInvariant.lean ====
/-
  What the output block's staging buffer holds after each grid point.

  Write A for the left operand [16384, 4096], W for the right operand [4096, 4096] (rows are output columns) and B
  for the one-row bias [1, 4096], as the region finds them.  For an output entry (r, o) let

     blockDot j = Σ_{k < 1024} A(r, 1024·j + k) · W(o, 1024·j + k)            (one contraction block's share)
     partialDot 0 = 0 + blockDot 0,     partialDot (j+1) = partialDot j + blockDot (j+1).

  Grid point n works on contraction block n mod 4 of one fixed output block (the same one for n, n−1, … down to the
  last multiple of 4), so after point n the buffer holds, at (p, q) of the block — entry (r, o) of the output —,
     partialDot (n mod 4)            when n mod 4 < 3,
     partialDot 3 + B(0, o)          when n mod 4 = 3  (the bias row is added at the last contraction step).
  By induction on n: the first step of a block starts from zero, every later step adds its share to what the step
  before left, and the output block does not move in between.
-/
import proofs.«126632_j86646670229807_2_alg».proof.Proof.AccPieces
import proofs.«126632_j86646670229807_2_alg».proof.Proof.AccPayload
import proofs.«126632_j86646670229807_2_alg».proof.Proof.AccBlocks

set_option maxRecDepth 16384

noncomputable section

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx Cert.Hand.Spec

/-- One contraction block's share of output entry (r, o). -/
def blockDot (A : S16384x4096.Idx → EReal) (W : S4096x4096.Idx → EReal) (r : Fin 16384) (o : Fin 4096) (j : ℕ) : EReal :=
  ∑ k : Fin 1024, A (ix2 r (kIdx j k)) * W (ix2 o (kIdx j k))

/-- The running total over contraction blocks 0 … j, in the kernel's order, started from zero. -/
def partialDot (A : S16384x4096.Idx → EReal) (W : S4096x4096.Idx → EReal) (r : Fin 16384) (o : Fin 4096) : ℕ → EReal
  | 0 => 0 + blockDot A W r o 0
  | j + 1 => partialDot A W r o j + blockDot A W r o (j + 1)

/-- What entry (p, q) of the output block holds after grid point n. -/
def accAt (A : S16384x4096.Idx → EReal) (W : S4096x4096.Idx → EReal) (B : S1x4096.Idx → EReal) (n : ℕ) (p : Fin 2048) (q : Fin 1024) : EReal :=
  if n % 4 = 3 then partialDot A W (rowIdx n p) (colIdx n q) 3 + B (ix2 (0 : Fin 1) (colIdx n q))
  else partialDot A W (rowIdx n p) (colIdx n q) (n % 4)

variable (m : (ℓ : Loc nD τ sig) → Buf (Elt Ideal) ℓ)

/-- The arrays as the region finds them, as plain functions of an index. -/
abbrev arrA (c : Dev nD) : S16384x4096.Idx → EReal := V m c main_call0_v6
abbrev arrW (c : Dev nD) : S4096x4096.Idx → EReal := V m c main_call0_v7
abbrev arrB (c : Dev nD) : S1x4096.Idx → EReal := V m c main_call0_v8

/-- The product of two blocks at (p, q), when the blocks are the arrays' entries at grid point n's rows, columns and
    contraction entries, is contraction block n mod 4's share of the output entry. -/
theorem dot_of (A : S16384x4096.Idx → EReal) (W : S4096x4096.Idx → EReal) (a : Vec Ideal S2048x1024 .bf16) (w : Vec Ideal S1024x1024 .bf16) (n : ℕ)
    (ha : ∀ (p : Fin 2048) (k : Fin 1024), a (ix2 p k) = A (ix2 (rowIdx n p) (kIdx n k)))
    (hw : ∀ (q : Fin 1024) (k : Fin 1024), w (ix2 q k) = W (ix2 (colIdx n q) (kIdx n k))) (p : Fin 2048) (q : Fin 1024) :
    (∑ k : Fin 1024, a (ix2 p k) * w (ix2 q k)) = blockDot A W (rowIdx n p) (colIdx n q) n :=
  Finset.sum_congr rfl fun k _ => by rw [ha p k, hw q k]

/-- At grid point t the two staged blocks are such entries. -/
theorem dot_at (c : Dev nD) (t : Fin cfg0.N) (p : Fin 2048) (q : Fin 1024) :
    (∑ k : Fin 1024, (show Vec Ideal S2048x1024 .bf16 from iblk m c 0 t) (ix2 p k) * (show Vec Ideal S1024x1024 .bf16 from iblk m c 1 t) (ix2 q k))
      = blockDot (arrA m c) (arrW m c) (rowIdx t.val p) (colIdx t.val q) t.val :=
  dot_of (arrA m c) (arrW m c) (iblk m c 0 t) (iblk m c 1 t) t.val (blk_lhs m c t) (blk_rhs m c t) p q

/-- Only the contraction block's number mod 4 matters. -/
theorem blockDot_mod (A : S16384x4096.Idx → EReal) (W : S4096x4096.Idx → EReal) (r : Fin 16384) (o : Fin 4096) (j : ℕ) :
    blockDot A W r o j = blockDot A W r o (j % 4) := by
  unfold blockDot
  refine Finset.sum_congr rfl fun k _ => ?_
  have e : kIdx j k = kIdx (j % 4) k := Fin.ext (by simp only [kIdx_val, Nat.mod_mod])
  rw [e]

/-- The first contraction step of a block: 0 + a·wᵀ. -/
theorem step_first (c : Dev nD) (t : Fin cfg0.N) (h0 : t.val % 4 = 0) (h1 : ¬t.val % 4 = 3) (p : Fin 2048) (q : Fin 1024) :
    outsAt0 m c t.val t.isLt (ix2 p q) = 0 + blockDot (arrA m c) (arrW m c) (rowIdx t.val p) (colIdx t.val q) t.val := by
  have e : outsAt0 m c t.val t.isLt = k0_pay2 (k0_pay1 (F := Ideal)) (iblk m c 0 t) (iblk m c 1 t) :=
    (outsAt0_A m c t h0 h1).trans (piece_first c (grid0.coords t) (ms0_0 t) (hs0_0 t) (ms0_1 t) (hs0_1 t) (ms0_2 t) (hs0_2 t)
      (ms0_3 t) (hs0_3 t) _ _ (iblk m c 0 t) (iblk m c 1 t) (iblk m c 2 t))
  refine (congrFun e (ix2 p q)).trans ((pay2_apply (k0_pay1 (F := Ideal)) (iblk m c 0 t) (iblk m c 1 t) p q).trans ?_)
  rw [pay1_apply, dot_at m c t p q]

/-- A middle contraction step: what the step before left, plus a·wᵀ. -/
theorem step_mid (c : Dev nD) (t : Fin cfg0.N) (h0 : ¬t.val % 4 = 0) (h1 : ¬t.val % 4 = 3) (p : Fin 2048) (q : Fin 1024) :
    outsAt0 m c t.val t.isLt (ix2 p q)
      = outsAt0 m c (t.val - 1) (Nat.lt_of_le_of_lt (Nat.sub_le _ _) t.isLt) (ix2 p q)
        + blockDot (arrA m c) (arrW m c) (rowIdx t.val p) (colIdx t.val q) t.val := by
  have e : outsAt0 m c t.val t.isLt
      = k0_pay2 (outsAt0 m c (t.val - 1) (Nat.lt_of_le_of_lt (Nat.sub_le _ _) t.isLt)) (iblk m c 0 t) (iblk m c 1 t) :=
    (outsAt0_B m c t h0 h1).trans (piece_mid c (grid0.coords t) (ms0_0 t) (hs0_0 t) (ms0_1 t) (hs0_1 t) (ms0_2 t) (hs0_2 t)
      (ms0_3 t) (hs0_3 t) _ _ (iblk m c 0 t) (iblk m c 1 t) (iblk m c 2 t)
      (outsAt0 m c (t.val - 1) (Nat.lt_of_le_of_lt (Nat.sub_le _ _) t.isLt)))
  refine (congrFun e (ix2 p q)).trans ((pay2_apply (outsAt0 m c (t.val - 1) (Nat.lt_of_le_of_lt (Nat.sub_le _ _) t.isLt))
    (iblk m c 0 t) (iblk m c 1 t) p q).trans ?_)
  rw [dot_at m c t p q]

/-- The last contraction step: what the step before left, plus a·wᵀ, plus the bias row. -/
theorem step_last (c : Dev nD) (t : Fin cfg0.N) (h0 : ¬t.val % 4 = 0) (h1 : t.val % 4 = 3) (p : Fin 2048) (q : Fin 1024) :
    outsAt0 m c t.val t.isLt (ix2 p q)
      = (outsAt0 m c (t.val - 1) (Nat.lt_of_le_of_lt (Nat.sub_le _ _) t.isLt) (ix2 p q)
          + blockDot (arrA m c) (arrW m c) (rowIdx t.val p) (colIdx t.val q) t.val)
        + arrB m c (ix2 (0 : Fin 1) (colIdx t.val q)) := by
  have e : outsAt0 m c t.val t.isLt
      = k0_pay3 (k0_pay2 (outsAt0 m c (t.val - 1) (Nat.lt_of_le_of_lt (Nat.sub_le _ _) t.isLt)) (iblk m c 0 t) (iblk m c 1 t)) (iblk m c 2 t) :=
    (outsAt0_C m c t h0 h1).trans (piece_last c (grid0.coords t) (ms0_0 t) (hs0_0 t) (ms0_1 t) (hs0_1 t) (ms0_2 t) (hs0_2 t)
      (ms0_3 t) (hs0_3 t) _ _ (iblk m c 0 t) (iblk m c 1 t) (iblk m c 2 t)
      (outsAt0 m c (t.val - 1) (Nat.lt_of_le_of_lt (Nat.sub_le _ _) t.isLt)))
  refine (congrFun e (ix2 p q)).trans ((pay3_apply (k0_pay2 (outsAt0 m c (t.val - 1) (Nat.lt_of_le_of_lt (Nat.sub_le _ _) t.isLt))
    (iblk m c 0 t) (iblk m c 1 t)) (iblk m c 2 t) p q).trans ?_)
  rw [pay2_apply (outsAt0 m c (t.val - 1) (Nat.lt_of_le_of_lt (Nat.sub_le _ _) t.isLt)) (iblk m c 0 t) (iblk m c 1 t) p q,
    dot_at m c t p q, blk_bias m c t q]

/-- THE INVARIANT: after grid point n the output block holds the running total of its contraction blocks 0 … n mod 4
    (and the bias once the last one is in). -/
theorem outsAt_apply (c : Dev nD) : ∀ (n : ℕ) (h : n < cfg0.N) (p : Fin 2048) (q : Fin 1024),
    outsAt0 m c n h (ix2 p q) = accAt (arrA m c) (arrW m c) (arrB m c) n p q
  | 0, h, p, q => by
    rw [step_first m c ⟨0, h⟩ rfl (by show ¬(0 % 4 = 3); omega) p q]
    rfl
  | n + 1, h, p, q => by
    have hN : n + 1 < 128 := lt_of_lt_of_eq h (show cfg0.N = 128 from N_0)
    have er : rowIdx (n + 1) p = rowIdx n p ∨ (n + 1) % 4 = 0 := by
      by_cases h4 : (n + 1) % 4 = 0
      · exact Or.inr h4
      · exact Or.inl (Fin.ext (by simp only [rowIdx_val]; omega))
    have ec : colIdx (n + 1) q = colIdx n q ∨ (n + 1) % 4 = 0 := by
      by_cases h4 : (n + 1) % 4 = 0
      · exact Or.inr h4
      · exact Or.inl (Fin.ext (by simp only [colIdx_val]; omega))
    rcases (by omega : (n + 1) % 4 = 0 ∨ (n + 1) % 4 = 1 ∨ (n + 1) % 4 = 2 ∨ (n + 1) % 4 = 3) with h4 | h4 | h4 | h4
    · -- a new output block starts
      rw [step_first m c ⟨n + 1, h⟩ h4 (by show ¬(n + 1) % 4 = 3; omega) p q]
      show 0 + blockDot _ _ _ _ (n + 1) = _
      rw [blockDot_mod, h4]
      unfold accAt
      rw [if_neg (by omega), h4]
      rfl
    · have hn : n % 4 = 0 := by omega
      have er' := er.resolve_right (by omega); have ec' := ec.resolve_right (by omega)
      rw [step_mid m c ⟨n + 1, h⟩ (by show ¬(n + 1) % 4 = 0; omega) (by show ¬(n + 1) % 4 = 3; omega) p q]
      show outsAt0 m c n _ (ix2 p q) + blockDot _ _ _ _ (n + 1) = _
      rw [outsAt_apply c n _ p q, blockDot_mod, h4]
      unfold accAt
      rw [if_neg (by omega), if_neg (by omega), h4, hn, er', ec']
      rfl
    · have hn : n % 4 = 1 := by omega
      have er' := er.resolve_right (by omega); have ec' := ec.resolve_right (by omega)
      rw [step_mid m c ⟨n + 1, h⟩ (by show ¬(n + 1) % 4 = 0; omega) (by show ¬(n + 1) % 4 = 3; omega) p q]
      show outsAt0 m c n _ (ix2 p q) + blockDot _ _ _ _ (n + 1) = _
      rw [outsAt_apply c n _ p q, blockDot_mod, h4]
      unfold accAt
      rw [if_neg (by omega), if_neg (by omega), h4, hn, er', ec']
      rfl
    · have hn : n % 4 = 2 := by omega
      have er' := er.resolve_right (by omega); have ec' := ec.resolve_right (by omega)
      rw [step_last m c ⟨n + 1, h⟩ (by show ¬(n + 1) % 4 = 0; omega) h4 p q]
      show (outsAt0 m c n _ (ix2 p q) + blockDot _ _ _ _ (n + 1)) + _ = _
      rw [outsAt_apply c n _ p q, blockDot_mod, h4]
      unfold accAt
      rw [if_neg (by omega), if_pos h4, hn, er', ec']
      rfl

end Cert.KernelIdeal.Acc

end
-- ==== Proof.AccFinal.lean ====
/-
  The output array [16384, 4096] after the region.

  Every fourth grid point (the last contraction step of an output block) writes its block back, and by then the block
  holds the full running total plus the bias.  The block written at such a point n is rows 2048·(n / 16) … and columns
  1024·((n / 4) mod 4) … of ONE function of the whole array,

      outFlat (r, o) = partialDot 3 (r, o) + B(0, o)
                     = ((((0 + blockDot 0) + blockDot 1) + blockDot 2) + blockDot 3) + B(0, o),

  and these 8 × 4 blocks tile the array: entry (r, o) lies in the block of row block r / 2048 and column block
  o / 1024, written at point 16·(r / 2048) + 4·(o / 1024) + 3.  So the array ends holding outFlat.
-/
import proofs.«126632_j86646670229807_2_alg».proof.Proof.AccInvariant

set_option maxRecDepth 16384

noncomputable section

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx Cert.Hand.Spec

/-- The finished output as one function of the arrays the region finds. -/
def outFlat (A : S16384x4096.Idx → EReal) (W : S4096x4096.Idx → EReal) (B : S1x4096.Idx → EReal) : S16384x4096.Idx → EReal :=
  fun i => partialDot A W (i 0) (i 1) 3 + B (ix2 (0 : Fin 1) (i 1))

variable (m : (ℓ : Loc nD τ sig) → Buf (Elt Ideal) ℓ)

/-- What a flushing point writes back is its block of outFlat. -/
theorem flushed_eq (c : Dev nD) (t : Fin cfg0.N) (hf : (cfg0.win 3).flush t = true) :
    (dats m 0 c).flushed 3 t = ((cfg0.win 3).blk t).view.read (Elt Ideal) (outFlat (arrA m c) (arrW m c) (arrB m c)) := by
  have h3 : t.val % 4 = 3 := (flush0_3 t).mp hf
  have hi := idx_out t
  show (cfg0.win 3).cut (grid0.coords t) ((dats m 0 c).after 3 t) = _
  rw [after0_3]
  funext (j : S2048x1024.Idx)
  obtain ⟨p, q, rfl⟩ : ∃ (p : Fin 2048) (q : Fin 1024), j = ix2 p q := ⟨j 0, j 1, eq_ix2 j⟩
  rw [View.read_apply]
  have hemb : ((cfg0.win 3).blk t).view.emb (ix2 p q) = (ix2 (rowIdx t.val p) (colIdx t.val q) : S16384x4096.Idx) := by
    funext a; apply Fin.ext
    match a with
    | ⟨0, _⟩ => show win0_3.index t 0 * 2048 + 1 * p.val = (t.val / 16 % 8) * 2048 + p.val; rw [hi.1]; omega
    | ⟨1, _⟩ => show win0_3.index t 1 * 1024 + 1 * q.val = (t.val / 4 % 4) * 1024 + q.val; rw [hi.2]; omega
  rw [hemb]
  show outsAt0 m c t.val t.isLt (ix2 p q) = _
  rw [outsAt_apply m c t.val t.isLt p q]
  unfold accAt
  rw [if_pos h3]
  rfl

/-- An entry of the array is in point t's block iff each coordinate is in the block's range on its axis. -/
theorem mem_blk (t : Fin cfg0.N) (i : S16384x4096.Idx) :
    i ∈ ((cfg0.win 3).blk t).view.set ↔ ∀ a : Fin 2, win0_3.index t a * S2048x1024.size a ≤ (i a).val
      ∧ (i a).val < win0_3.index t a * S2048x1024.size a + S2048x1024.size a := by
  show i ∈ ((View.whole main_call0_v9).slice (win0_3.rect t)).set ↔ _
  rw [View.set_slice_whole, Rect.mem_set_unit]
  exact Iff.rfl

/-- The flushed blocks tile the array. -/
theorem covered (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  have hN : cfg0.N = 128 := N_0
  obtain ⟨n, hn_eq⟩ : ∃ n, n = (i 0).val / 2048 * 16 + (i 1).val / 1024 * 4 + 3 := ⟨_, rfl⟩
  have hn : n < cfg0.N := by rw [hN]; omega
  have hx := idx_out ⟨n, hn⟩
  have hx0 : win0_3.index ⟨n, hn⟩ (0 : Fin 2) = n / 16 % 8 := hx.1
  have hx1 : win0_3.index ⟨n, hn⟩ (1 : Fin 2) = n / 4 % 4 := hx.2
  refine ⟨⟨n, hn⟩, (flush0_3 _).mpr (by show n % 4 = 3; omega), ?_⟩
  rw [mem_blk]
  intro a
  match a with
  | ⟨0, _⟩ =>
    show win0_3.index ⟨n, hn⟩ (0 : Fin 2) * 2048 ≤ (i 0).val ∧ (i 0).val < win0_3.index ⟨n, hn⟩ (0 : Fin 2) * 2048 + 2048
    rw [hx0]; omega
  | ⟨1, _⟩ =>
    show win0_3.index ⟨n, hn⟩ (1 : Fin 2) * 1024 ≤ (i 1).val ∧ (i 1).val < win0_3.index ⟨n, hn⟩ (1 : Fin 2) * 1024 + 1024
    rw [hx1]; omega

/-- So the output array ends holding outFlat of the arrays the region finds. -/
theorem final_out (c : Dev nD) : (dats m 0 c).arrAt 3 cfg0.N = outFlat (arrA m c) (arrW m c) (arrB m c) :=
  (dats m 0 c).arrAt_eq_of_cover 3 (outFlat (arrA m c) (arrW m c) (arrB m c)) (flushed_eq m c) covered

end Cert.KernelIdeal.Acc

end
-- ==== Proof.KernelRun.lean ====
/-
  The kernel program's run, with its result named.

  After the region one host operation is left: the output [16384, 4096] is reshaped to [4, 4096, 4096].  Every weakly
  fair execution of the program therefore terminates with the result buffer holding that reshape of outFlat of the
  arrays the region found, and with the six argument arrays unchanged (no operation writes them).
-/
import proofs.«126632_j86646670229807_2_alg».proof.Proof.AccFinal
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx Cert.Hand.Spec

variable (m : (ℓ : Loc nD τ sig) → Buf (Elt Ideal) ℓ) (ρ : Dev nD → PrngReg)

/-- The program's result: the finished output, reshaped to [4, 4096, 4096]. -/
def kernelOut (c : Dev nD) : S4x4096x4096.Idx → EReal :=
  shapeCast S4x4096x4096 (outFlat (arrA m c) (arrW m c) (arrB m c)) shapeCasts_S16384x4096_S4x4096x4096

/-- The host operation after the region leaves the reshape of the finished output in the result buffer. -/
theorem tail_eq (c : Dev nD) :
    (Pipeline.afterTail₀ cfgs (dats m) 0 (V0 m) [hostOps1] c main_v0 : S4x4096x4096.Idx → EReal) = kernelOut m c := by
  unfold Pipeline.afterTail₀
  show StableHlo.after hostOps1 _ (Proc.devRef .tc main_v0) = _
  after_results
  have hw : Pipeline.withArrays spec0 c (V0 m c) (fun w => (dats m 0 c).arrAt w cfg0.N) (Proc.devRef .tc (Pipeline.arrRef spec0 3))
      = outFlat (arrA m c) (arrW m c) (arrB m c) :=
    (Pipeline.withArrays_arr spec0 launch0.win.arr_inj c (V0 m c) (fun w => (dats m 0 c).arrAt w cfg0.N) 3).trans (final_out m c)
  unfold kernelOut
  rw [← hw]
  rfl

/-- THE KERNEL'S RUN: every weakly fair execution terminates with the result buffer at kernelOut and the six arguments
    as they were (the frame run's post read at the result buffer and at each argument). -/
theorem run : θ_run defs (onTc (τ := τ) (main (F := Ideal))) ⟨m, fun _ => 0, ρ⟩ (fun r => ∀ c : Dev nD,
      r.2.mem ((c.tc : Thread nD τ).loc main_v0) = kernelOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v0 (Pipeline.mem_restRefs_of main_v0 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Acc

end
-- ==== Proof.HostSide.lean ====
/-
  The three arrays the region finds, as functions of the program's arguments, and read at an index.

  Before the region the host computes, from x [4, 4096, 4096], W0 [4096, 4096], the bias [4096] and the three small
  factors: the left operand  x flattened to [16384, 4096]  (row 4096·b + s of it is row (b, s) of x), the right operand
  W0 + Δ  where Δ is the Kronecker product of the first factor with the product of the other two, scaled by 1/4, and
  the bias as one row [1, 4096].  The two changes of float format are the identity on the extended reals.
-/
import proofs.«126632_j86646670229807_2_alg».proof.Proof.Gen.KernelIdeal.Frame
import Idealize.ShloMosaic.Lib.StableHlo.Run
import Idealize.ShloMosaic.Lib.Pipeline.Value
import Idealize.ShloMosaic.Lib.ValueIdx

set_option maxRecDepth 16384

noncomputable section

open Idealize.ShloMosaic Idealize.ShloMosaic.TcCoe Idealize.SL.Sem

namespace Cert.KernelIdeal.Acc

open Cert.KernelIdeal Cert.KernelIdeal.Gen Idealize.ShloMosaic.ValueIdx

variable {F : FTy → Type} [FloatOps F]

/-- Δ: the Kronecker product of w1 with w2a·w2b, times the constant 1/4 (the same operations, in the same order,
    as the program prints them). -/
def deltaW (w1 : FVec F S64x64 .f32) (w2a : FVec F S64x4 .f32) (w2b : FVec F S4x64 .f32) : FVec F S4096x4096 .f32 :=
  mulf (shapeCast S4096x4096
      (mulf (broadcastInDim S64x64x64x64 ![0, 1, 2, 3] bcast_S64x1x64x1_S64x64x64x64_0_1_2_3 (broadcastInDim S64x1x64x1 ![0, 2] bcast_S64x64_S64x1x64x1_0_2 w1))
        (broadcastInDim S64x64x64x64 ![0, 1, 2, 3] bcast_S1x64x1x64_S64x64x64x64_0_1_2_3 (broadcastInDim S1x64x1x64 ![1, 3] bcast_S64x64_S1x64x1x64_1_3
          (Host.dotGeneral dot_S64x4_S4x64_S64x64_1_0_0_1_n_n none w2a w2b))))
      shapeCasts_S64x64x64x64_S4096x4096)
    (broadcastInDim S4096x4096 ![] bcast_S_S4096x4096 (constant S_ .f32 0x3E800000#32))

variable (m : (ℓ : Loc nD τ sig) → Buf (Elt F) ℓ)

/-- The left operand the region finds: x flattened, its format changed. -/
theorem V_lhs (c : Dev nD) : (V m c main_call0_v6 : S16384x4096.Idx → F .bf16)
    = truncf .bf16 (shapeCast S16384x4096 (m ((c : Thread nD τ).loc main_arg0)) shapeCasts_S4x4096x4096_S16384x4096) bitsLt_bf16_f32 := by
  show StableHlo.after hostOps0 (fun b => m (c, b)) (Proc.devRef .tc main_call0_v6) = _
  after_results
  rfl

/-- The right operand the region finds: W0 + Δ, its format changed. -/
theorem V_rhs (c : Dev nD) : (V m c main_call0_v7 : S4096x4096.Idx → F .bf16)
    = truncf .bf16 (addf (m ((c : Thread nD τ).loc main_arg1))
        (deltaW (m ((c : Thread nD τ).loc main_arg3)) (m ((c : Thread nD τ).loc main_arg4)) (m ((c : Thread nD τ).loc main_arg5)))) bitsLt_bf16_f32 := by
  show StableHlo.after hostOps0 (fun b => m (c, b)) (Proc.devRef .tc main_call0_v7) = _
  after_results
  rfl

/-- The bias the region finds: the bias vector as one row. -/
theorem V_bias (c : Dev nD) : (V m c main_call0_v8 : S1x4096.Idx → F .f32)
    = shapeCast S1x4096 (m ((c : Thread nD τ).loc main_arg2)) shapeCasts_S4096_S1x4096 := by
  show StableHlo.after hostOps0 (fun b => m (c, b)) (Proc.devRef .tc main_call0_v8) = _
  after_results
  rfl

end Cert.KernelIdeal.Acc

end
-- ==== Proof.LibFinite.lean ====
/-
  Extended reals that are real numbers, and the operations that keep them so.

  An extended real is either −∞, +∞ or (the image of) a real number.  Sums, differences, products, finite sums and
  maxima of real numbers are real numbers; so is a quotient by a real number that is not zero, and so is the
  inverse square root of a positive real number.  A network whose inputs are all real numbers and which only ever
  divides by numbers that are at least one, and takes inverse square roots of positive numbers, therefore never
  leaves the real numbers.
-/
import Idealize.ShloMosaic.PureOps.Ideal.Laws

noncomputable section

namespace LibFinite

open Idealize.ShloMosaic

open scoped BigOperators

/-- The extended real `x` is a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

/-- A finite sum of real numbers is a real number. -/
theorem isReal_sum {ι : Type*} (s : Finset ι) (f : ι → EReal) (h : ∀ i ∈ s, IsReal (f i)) : IsReal (∑ i ∈ s, f i) := by
  classical
  induction s using Finset.induction_on with
  | empty => simpa using isReal_zero
  | insert i s hi ih =>
    rw [Finset.sum_insert hi]
    exact (h i (Finset.mem_insert_self i s)).add (ih fun j hj => h j (Finset.mem_insert_of_mem hj))

/-- The quotient of a real number by a nonzero real number is a real number. -/
theorem IsReal.div {x y : EReal} (hx : IsReal x) (hy : IsReal y) (hy0 : y ≠ 0) : IsReal (Ideal.div x y) := by
  obtain ⟨a, rfl⟩ := hx; obtain ⟨b, rfl⟩ := hy
  have hb : b ≠ 0 := fun e => hy0 (by rw [e]; rfl)
  rw [Ideal.div_coe hb]
  exact (isReal_coe a).mul (isReal_coe _)

/-- The inverse square root of a positive real number is a real number. -/
theorem isReal_rsqrt {r : ℝ} (hr : 0 < r) : IsReal (Ideal.rsqrt (r : EReal)) := by
  rw [Ideal.rsqrt_coe, if_neg (not_lt.mpr hr.le), if_neg hr.ne']
  exact isReal_coe _

/-- A real number that is at least one is not zero. -/
theorem ne_zero_of_one_le {x : EReal} (h : 1 ≤ x) : x ≠ 0 := fun e => by
  rw [e] at h; exact absurd h (by norm_num)

end LibFinite

end
-- ==== Proof.LibMoments.lean ====
/-
  Two ways of computing the variance of finitely many numbers agree.

  For real numbers a₀ … aₙ₋₁ with total S and mean μ = S / n, the mean of the squared deviations, (∑ (aᵣ − μ)²) / n,
  equals the mean of the squares minus the square of the mean, (∑ aᵣ²) / n − μ²: expanding the square gives
  ∑ aᵣ² − 2 μ S + n μ², and μ S = n μ².  On the extended reals the same identity holds as soon as every aᵣ is a
  real number (with an infinite entry the two sides differ: one is +∞, the other a difference of infinities), and
  then every quantity involved is again a real number.  The coercion from the reals commutes with finite sums.
-/
import Idealize.ShloMosaic.PureOps.Ideal.Laws

noncomputable section

namespace LibMoments

open Idealize.ShloMosaic

open scoped BigOperators

/-- The coercion of a finite sum of reals is the sum of the coercions. -/
theorem coe_sum {ι : Type*} (s : Finset ι) (a : ι → ℝ) : ((∑ i ∈ s, a i : ℝ) : EReal) = ∑ i ∈ s, (a i : EReal) := by
  classical
  induction s using Finset.induction_on with
  | empty => simp
  | insert i s hi ih => rw [Finset.sum_insert hi, Finset.sum_insert hi, EReal.coe_add, ih]

/-- Over the reals: the mean squared deviation from the mean is the mean square minus the squared mean. -/
theorem real_var {n : ℕ} (hn : (n : ℝ) ≠ 0) (a : Fin n → ℝ) :
    (∑ r, (a r - (∑ s, a s) / n) * (a r - (∑ s, a s) / n)) / n
      = (∑ r, a r * a r) / n - ((∑ s, a s) / n) * ((∑ s, a s) / n) := by
  have h1 : ∑ r, (a r - (∑ s, a s) / n) * (a r - (∑ s, a s) / n)
      = (∑ r, a r * a r) - 2 * ((∑ s, a s) / n) * (∑ r, a r) + n * (((∑ s, a s) / n) * ((∑ s, a s) / n)) := by
    have e : ∀ r, (a r - (∑ s, a s) / n) * (a r - (∑ s, a s) / n)
        = a r * a r - 2 * ((∑ s, a s) / n) * a r + ((∑ s, a s) / n) * ((∑ s, a s) / n) := fun r => by ring
    simp only [e, Finset.sum_add_distrib, Finset.sum_sub_distrib, ← Finset.mul_sum, Finset.sum_const,
      Finset.card_univ, Fintype.card_fin, nsmul_eq_mul]
    ring
  rw [h1]
  field_simp
  ring

/-- A quotient of an extended real by a nonzero real, as the library's division reads it, of a real numerator. -/
theorem div_coe_coe {y : ℝ} (h : y ≠ 0) (x : ℝ) : Ideal.div (x : EReal) (y : EReal) = ((x / y : ℝ) : EReal) := by
  rw [Ideal.div_coe h, ← EReal.coe_mul, mul_one_div]

/-- On the extended reals, for REAL entries: the mean squared deviation from the mean is the mean square minus the
    squared mean; both are the coercion of the real variance. -/
theorem var_eq {n : ℕ} (hn : (n : ℝ) ≠ 0) (h : Fin n → EReal) (hf : ∀ r, ∃ x : ℝ, h r = (x : EReal)) :
    Ideal.div (∑ r, (h r - Ideal.div (∑ s, h s) ((n : ℝ) : EReal)) * (h r - Ideal.div (∑ s, h s) ((n : ℝ) : EReal)))
        ((n : ℝ) : EReal)
      = Ideal.div (∑ r, h r * h r) ((n : ℝ) : EReal)
        - Ideal.div (∑ s, h s) ((n : ℝ) : EReal) * Ideal.div (∑ s, h s) ((n : ℝ) : EReal) := by
  choose a ha using hf
  simp only [ha]
  simp only [← coe_sum, div_coe_coe hn, ← EReal.coe_sub, ← EReal.coe_mul]
  exact congrArg _ (real_var hn a)

/-- For REAL entries the mean-square-minus-squared-mean is a real number that is not negative. -/
theorem var_real_nonneg {n : ℕ} (hn : (n : ℝ) ≠ 0) (h : Fin n → EReal) (hf : ∀ r, ∃ x : ℝ, h r = (x : EReal)) :
    ∃ v : ℝ, 0 ≤ v ∧
      Ideal.div (∑ r, h r * h r) ((n : ℝ) : EReal)
        - Ideal.div (∑ s, h s) ((n : ℝ) : EReal) * Ideal.div (∑ s, h s) ((n : ℝ) : EReal) = (v : EReal) := by
  choose a ha using hf
  refine ⟨(∑ r, (a r - (∑ s, a s) / n) * (a r - (∑ s, a s) / n)) / n, ?_, ?_⟩
  · have hn' : (0 : ℝ) < n := lt_of_le_of_ne (Nat.cast_nonneg n) (Ne.symm hn)
    exact div_nonneg (Finset.sum_nonneg fun r _ => mul_self_nonneg _) hn'.le
  · simp only [ha]
    simp only [← coe_sum, div_coe_coe hn, ← EReal.coe_sub, ← EReal.coe_mul]
    exact congrArg _ (real_var hn a).symm

end LibMoments

end
-- ==== Proof.Algebra.lean ====
/-
  A dot product accumulated in four blocks, with a summed right factor, against the same dot product split in two.

  One side accumulates a dot product of length 4096 in four consecutive blocks of 1024, starting from 0, and adds a
  bias at the end; its right factor is a sum g + e.  The other side takes the whole dot product with g, adds the bias,
  and then adds the whole dot product with e.  Over the real numbers the two agree: a sum over 4096 = 4 · 1024 entries
  is the sum of its four block sums (entry k of block j is entry 1024·j + k), and f·(g + e) = f·g + f·e.  Over the
  extended reals distributivity and re-association fail at ±∞ (for instance (+∞) · (1 + (−1)) = 0 while
  (+∞) · 1 + (+∞) · (−1) is a difference of infinities), so the statement asks every entry to be a real number; then
  both sides are the image of the same real number.
-/
import proofs.«126632_j86646670229807_2_alg».proof.Proof.Spec
import proofs.«126632_j86646670229807_2_alg».proof.Proof.LibFinite
import proofs.«126632_j86646670229807_2_alg».proof.Proof.LibMoments

noncomputable section

namespace Cert.Hand.Algebra

open Cert.Hand.Spec

open scoped BigOperators

/-- A sum over 4096 entries is the sum over the four blocks of the sums over each block's 1024 entries. -/
theorem sum_blocks (h : Fin 4096 → ℝ) :
    ∑ k : Fin 4096, h k = ∑ j : Fin 4, ∑ k : Fin 1024, h (kIdx j.val k) := by
  have h1 : ∑ k : Fin 4096, h k = ∑ p : Fin 4 × Fin 1024, h ((finProdFinEquiv : Fin 4 × Fin 1024 ≃ Fin 4096) p) :=
    (Equiv.sum_comp (finProdFinEquiv : Fin 4 × Fin 1024 ≃ Fin 4096) h).symm
  rw [h1, Fintype.sum_prod_type]
  refine Finset.sum_congr rfl fun j _ => Finset.sum_congr rfl fun k _ => congrArg h (Fin.ext ?_)
  -- pair (j, k) goes to entry k + 1024·j, and j < 4
  show k.val + 1024 * j.val = (j.val % 4) * 1024 + k.val
  have := j.isLt
  omega

/-- The same with the four blocks written out. -/
theorem sum_blocks4 (h : Fin 4096 → ℝ) :
    ∑ k : Fin 4096, h k
      = (∑ k : Fin 1024, h (kIdx 0 k)) + (∑ k : Fin 1024, h (kIdx 1 k)) + (∑ k : Fin 1024, h (kIdx 2 k))
        + ∑ k : Fin 1024, h (kIdx 3 k) := by
  rw [sum_blocks, Fin.sum_univ_four]
  rfl

/-- Over the reals: the four block sums of f·(g + e), added up from 0 with the bias last, are the whole dot product
    with g, plus the bias, plus the whole dot product with e. -/
theorem real_chain (F G E : Fin 4096 → ℝ) (β : ℝ) :
    ((((0 + ∑ k : Fin 1024, F (kIdx 0 k) * (G (kIdx 0 k) + E (kIdx 0 k)))
        + ∑ k : Fin 1024, F (kIdx 1 k) * (G (kIdx 1 k) + E (kIdx 1 k)))
        + ∑ k : Fin 1024, F (kIdx 2 k) * (G (kIdx 2 k) + E (kIdx 2 k)))
        + ∑ k : Fin 1024, F (kIdx 3 k) * (G (kIdx 3 k) + E (kIdx 3 k))) + β
      = ((∑ k : Fin 4096, F k * G k) + β) + ∑ k : Fin 4096, F k * E k := by
  rw [sum_blocks4 (fun k => F k * G k), sum_blocks4 (fun k => F k * E k)]
  simp only [mul_add, Finset.sum_add_distrib]
  ring

/-- The sum over block j of the products of f with the summed right factor g + e. -/
def blockSum (f g e : Fin 4096 → EReal) (j : ℕ) : EReal :=
  ∑ k : Fin 1024, f (Cert.Hand.Spec.kIdx j k) * (g (Cert.Hand.Spec.kIdx j k) + e (Cert.Hand.Spec.kIdx j k))

/-- On the extended reals, for REAL entries and a real bias: accumulating the four block sums from 0 and adding the
    bias gives the dot product with g, plus the bias, plus the dot product with e. -/
theorem chain_eq (f g e : Fin 4096 → EReal) (b : EReal)
    (hf : ∀ k, LibFinite.IsReal (f k)) (hg : ∀ k, LibFinite.IsReal (g k)) (he : ∀ k, LibFinite.IsReal (e k))
    (hb : LibFinite.IsReal b) :
    ((((0 + blockSum f g e 0) + blockSum f g e 1) + blockSum f g e 2) + blockSum f g e 3) + b
      = ((∑ k : Fin 4096, f k * g k) + b) + ∑ k : Fin 4096, f k * e k := by
  choose F hF using hf
  choose G hG using hg
  choose E hE using he
  obtain ⟨β, rfl⟩ := hb
  -- every quantity is the image of a real number, and the image commutes with +, · and finite sums
  simp only [blockSum, hF, hG, hE]
  simp only [← EReal.coe_zero, ← EReal.coe_add, ← EReal.coe_mul, ← LibMoments.coe_sum]
  exact congrArg Real.toEReal (real_chain F G E β)

end Cert.Hand.Algebra

end
-- ==== Proof.KernelValue.lean ====
/-
  The kernel's result at an entry, as a function of the program's arguments.

  Entry (b, s, o) of the result [4, 4096, 4096] is entry (4096·b + s, o) of the finished output [16384, 4096] (a
  reshape keeps the row-major position).  There the output holds the four contraction blocks' shares added up from
  zero, plus the bias, where row 4096·b + s of the left operand is row (b, s) of x, row o of the right operand is
  row o of W0 + Δ, and entry (0, o) of the one-row bias is entry o of the bias vector:

     result(b, s, o) = ((((0 + S₀) + S₁) + S₂) + S₃) + bias(o),
     Sⱼ = Σ_{k < 1024} x(b, s, 1024·j + k) · (W0(o, 1024·j + k) + Δ(o, 1024·j + k)).
-/
import proofs.«126632_j86646670229807_2_alg».proof.Proof.KernelRun
import proofs.«126632_j86646670229807_2_alg».proof.Proof.HostSide
import proofs.«126632_j86646670229807_2_alg».proof.Proof.Algebra

set_option maxRecDepth 16384

noncomputable section

open Idealize.ShloMosaic Idealize.ShloMosaic.TcCoe Idealize.SL.Sem

namespace Cert.KernelIdeal.Acc

open Cert.KernelIdeal Cert.KernelIdeal.Gen Idealize.ShloMosaic.ValueIdx Cert.Hand.Spec Cert.Hand.Algebra

/-- Row (b, s) of x as a row of x flattened. -/
def flatRow (b : Fin 4) (s : Fin 4096) : Fin 16384 := ⟨b.val * 4096 + s.val, by have := b.isLt; have := s.isLt; omega⟩

/-- x flattened (and its format changed), at (4096·b + s, k): x at (b, s, k). -/
theorem lhs_entry (x : FVec Ideal S4x4096x4096 .f32) (h : S4x4096x4096.ShapeCasts S16384x4096) (h' : FTy.bits .bf16 < FTy.bits .f32)
    (b : Fin 4) (s : Fin 4096) (k : Fin 4096) :
    (truncf .bf16 (shapeCast S16384x4096 x h) h' : FVec Ideal S16384x4096 .bf16) (ix2 (flatRow b s) k) = x (ix3 b s k) := by
  show shapeCast S16384x4096 x h (ix2 (flatRow b s) k) = x (ix3 b s k)
  refine shapeCast_apply x h (ix2 (flatRow b s) k) (ix3 b s k) ?_
  rw [Shape.rowMajor_val_three, Shape.rowMajor_val_two]
  rfl

/-- The bias as one row, at (0, o): the bias at o. -/
theorem bias_entry (x : FVec Ideal S4096 .f32) (h : S4096.ShapeCasts S1x4096) (o : Fin 4096) :
    shapeCast S1x4096 x h (ix2 (0 : Fin 1) o) = x (ix1 o) := by
  refine shapeCast_apply x h (ix2 (0 : Fin 1) o) (ix1 o) ?_
  rw [Shape.rowMajor_val_one, Shape.rowMajor_val_two]
  show o.val = 0 * 4096 + o.val
  omega

/-- The finished output reshaped, at (b, s, o): the finished output at (4096·b + s, o). -/
theorem out_entry (y : S16384x4096.Idx → EReal) (h : S16384x4096.ShapeCasts S4x4096x4096) (b : Fin 4) (s : Fin 4096) (o : Fin 4096) :
    shapeCast S4x4096x4096 y h (ix3 b s o) = y (ix2 (flatRow b s) o) := by
  refine shapeCast_apply y h (ix3 b s o) (ix2 (flatRow b s) o) ?_
  rw [Shape.rowMajor_val_three, Shape.rowMajor_val_two]
  rfl

variable (m : (ℓ : Loc nD τ sig) → Buf (Elt Ideal) ℓ)

/-- The arguments, as plain arrays. -/
abbrev argX (c : Dev nD) : FVec Ideal S4x4096x4096 .f32 := m ((c : Thread nD τ).loc main_arg0)
abbrev argW0 (c : Dev nD) : FVec Ideal S4096x4096 .f32 := m ((c : Thread nD τ).loc main_arg1)
abbrev argBias (c : Dev nD) : FVec Ideal S4096 .f32 := m ((c : Thread nD τ).loc main_arg2)
abbrev argDelta (c : Dev nD) : FVec Ideal S4096x4096 .f32 :=
  deltaW (m ((c : Thread nD τ).loc main_arg3)) (m ((c : Thread nD τ).loc main_arg4)) (m ((c : Thread nD τ).loc main_arg5))

/-- One contraction block's share, over the arguments. -/
theorem blockDot_args (c : Dev nD) (b : Fin 4) (s : Fin 4096) (o : Fin 4096) (j : ℕ) :
    blockDot (arrA m c) (arrW m c) (flatRow b s) o j
      = blockSum (fun k => argX m c (ix3 b s k)) (fun k => argW0 m c (ix2 o k)) (fun k => argDelta m c (ix2 o k)) j := by
  unfold blockDot blockSum
  refine Finset.sum_congr rfl fun k _ => ?_
  have eA : arrA m c (ix2 (flatRow b s) (kIdx j k)) = argX m c (ix3 b s (kIdx j k)) := by
    show (V m c main_call0_v6 : S16384x4096.Idx → EReal) _ = _
    rw [V_lhs m c]
    exact lhs_entry _ _ _ b s (kIdx j k)
  have eW : arrW m c (ix2 o (kIdx j k)) = argW0 m c (ix2 o (kIdx j k)) + argDelta m c (ix2 o (kIdx j k)) := by
    show (V m c main_call0_v7 : S4096x4096.Idx → EReal) _ = _
    rw [V_rhs m c]
    rfl
  rw [eA, eW]

/-- THE KERNEL'S VALUE at (b, s, o). -/
theorem kernel_apply (c : Dev nD) (b : Fin 4) (s : Fin 4096) (o : Fin 4096) :
    kernelOut m c (ix3 b s o)
      = ((((0 + blockSum (fun k => argX m c (ix3 b s k)) (fun k => argW0 m c (ix2 o k)) (fun k => argDelta m c (ix2 o k)) 0)
          + blockSum (fun k => argX m c (ix3 b s k)) (fun k => argW0 m c (ix2 o k)) (fun k => argDelta m c (ix2 o k)) 1)
          + blockSum (fun k => argX m c (ix3 b s k)) (fun k => argW0 m c (ix2 o k)) (fun k => argDelta m c (ix2 o k)) 2)
          + blockSum (fun k => argX m c (ix3 b s k)) (fun k => argW0 m c (ix2 o k)) (fun k => argDelta m c (ix2 o k)) 3)
        + argBias m c (ix1 o) := by
  unfold kernelOut
  rw [out_entry]
  show partialDot (arrA m c) (arrW m c) (flatRow b s) o 3 + arrB m c (ix2 (0 : Fin 1) o) = _
  have eB : arrB m c (ix2 (0 : Fin 1) o) = argBias m c (ix1 o) := by
    show (V m c main_call0_v8 : S1x4096.Idx → EReal) _ = _
    rw [V_bias m c]
    exact bias_entry _ _ o
  rw [eB]
  simp only [partialDot, blockDot_args m c b s o]

end Cert.KernelIdeal.Acc

end
-- ==== Proof.RefSide.lean ====
/-
  The reference, read at one output entry.

  The reference computes, for batch b, row s and column o, the dot product of row (b, s) of the first input with
  row o of the weight, adds entry o of the bias, and then adds the dot product of the same row with row o of a second
  matrix: one quarter of the Kronecker product of a 64 × 64 matrix with the product of a 64 × 4 and a 4 × 64 matrix.
  Each entry of that second matrix is a product of one entry of the 64 × 64 matrix, a sum of four products of entries
  of the two thin matrices, and the constant one quarter; so it is a real number as soon as all those entries are.
-/
import proofs.«126632_j86646670229807_2_alg».proof.Proof.Gen.ReferenceIdeal.Read
import proofs.«126632_j86646670229807_2_alg».proof.Proof.LibFinite
import Idealize.ShloMosaic.Lib.ValueIdx

noncomputable section

namespace Cert.Hand.RefSide

open Cert.ReferenceIdeal Cert.ReferenceIdeal.Read Idealize.ShloMosaic Idealize.ShloMosaic.ValueIdx

open scoped BigOperators

/-- The reference at entry (b, s, o): the dot product with the weight's row o, plus the bias at o, plus the dot
    product with row o of the scaled Kronecker term. -/
theorem ref_apply (x0 : FVec Ideal S4x4096x4096 .f32) (x1 : FVec Ideal S4096x4096 .f32) (x2 : FVec Ideal S4096 .f32)
    (x3 : FVec Ideal S64x64 .f32) (x4 : FVec Ideal S64x4 .f32) (x5 : FVec Ideal S4x64 .f32)
    (b : Fin 4) (s : Fin 4096) (o : Fin 4096) :
    val_main_v9 (F := Ideal) x0 x1 x2 x3 x4 x5 (ix3 b s o)
      = ((∑ k : Fin 4096, x0 (ix3 b s k) * x1 (ix2 o k)) + x2 (ix1 o))
        + ∑ k : Fin 4096, x0 (ix3 b s k) * (val_main_v7 (F := Ideal) x3 x4 x5) (ix2 o k) := by
  -- the indices the operands are read at, by coordinates
  have el0 : ∀ k, lidx_main_v0 (ix3 b s o) k = ix3 b s k := fun k =>
    funext fun a => Fin.ext (by match a with | ⟨0, _⟩ => rfl | ⟨1, _⟩ => rfl | ⟨2, _⟩ => rfl)
  have er0 : ∀ k, ridx_main_v0 (ix3 b s o) k = ix2 o k := fun k =>
    funext fun a => Fin.ext (by match a with | ⟨0, _⟩ => rfl | ⟨1, _⟩ => rfl)
  have el8 : ∀ k, lidx_main_v8 (ix3 b s o) k = ix3 b s k := fun k =>
    funext fun a => Fin.ext (by match a with | ⟨0, _⟩ => rfl | ⟨1, _⟩ => rfl | ⟨2, _⟩ => rfl)
  have er8 : ∀ k, ridx_main_v8 (ix3 b s o) k = ix2 o k := fun k =>
    funext fun a => Fin.ext (by match a with | ⟨0, _⟩ => rfl | ⟨1, _⟩ => rfl)
  have eb : idx_main_v1 (idx_main_v2 (ix3 b s o)) = ix1 o :=
    funext fun a => Fin.ext (by match a with | ⟨0, _⟩ => rfl)
  rw [val_main_v9_apply, val_main_v3_apply, val_main_v0_apply, val_main_v8_apply, val_main_v2_apply,
    val_main_v1_apply]
  simp only [el0, er0, el8, er8, eb]
  rfl

/-- The bit pattern 0x3E800000 of the 32-bit format denotes the real number one quarter. -/
theorem ofBits_quarter : Ideal.ofBits .f32 0x3E800000#32 = (((1 : ℝ) / 4 : ℝ) : EReal) := by
  simp [Ideal.ofBits, Ideal.ieee, -EReal.coe_mul]; norm_num

/-- Every entry of the scaled Kronecker term is a real number when the three matrices it is built from have real
    entries: it is (an entry of the 64 × 64 matrix) · (a sum of four products of entries of the thin matrices) · ¼. -/
theorem delta_real (x3 : FVec Ideal S64x64 .f32) (x4 : FVec Ideal S64x4 .f32) (x5 : FVec Ideal S4x64 .f32)
    (h3 : ∀ i, LibFinite.IsReal (x3 i)) (h4 : ∀ i, LibFinite.IsReal (x4 i)) (h5 : ∀ i, LibFinite.IsReal (x5 i)) :
    ∀ j : S4096x4096.Idx, LibFinite.IsReal (val_main_v7 (F := Ideal) x3 x4 x5 j) := by
  intro j
  rw [val_main_v7_apply, val_main_v6_apply, val_main_cst_apply, val_main_v5_apply, val_main_call0_v4_apply,
    val_main_call0_v2_apply, val_main_call0_v0_apply, val_main_call0_v3_apply, val_main_call0_v1_apply,
    val_main_v4_apply]
  simp only [Ideal.mulf_def, Ideal.ofBits_def]
  -- which entries are read does not matter: every one of them is a real number
  refine LibFinite.IsReal.mul (LibFinite.IsReal.mul (h3 _) (LibFinite.isReal_sum _ _ fun k _ => ?_)) ?_
  · exact (h4 _).mul (h5 _)
  · exact ⟨_, ofBits_quarter⟩

end Cert.Hand.RefSide

end
-- ==== Proof.Finite.lean ====
/-
  From the precondition "every input is finite" to "every entry of every input is a real number".

  At the ideal instance a float is an extended real.  The precondition computes, for each of the six input arrays,
  the conjunction over all entries x of the bit (|x| < +∞), and then the conjunction of the six results; it states
  that the outcome is the bit 1.  A conjunction of bits is 1 exactly when every one of them is 1, and a conjunction
  over an array started from 1 is 1 only when every entry's bit is 1.  For an extended real x, |x| = max x (−x),
  and max x (−x) < +∞ excludes both x = +∞ and x = −∞ (whose negative is +∞): what is left is a real number.
-/
import proofs.«126632_j86646670229807_2_alg».proof.Pre_finite_inputs
import proofs.«126632_j86646670229807_2_alg».proof.Proof.LibFinite
import Idealize.ShloMosaic.PureOps.Ideal.Laws
import Idealize.ShloMosaic.Lib.ReduceAll
import Idealize.ShloMosaic.Lib.ValueIdx

noncomputable section

namespace Cert.Hand.Finite

open Idealize.ShloMosaic

/-- The scalar shape has exactly one index. -/
instance subsingleton_scalar_idx : Subsingleton Cert.Pre_finite_inputs.S_.Idx :=
  ⟨fun a b => funext fun d => d.elim0⟩

/-- The bit pattern 0x7F800000 of the 32-bit format denotes +∞. -/
theorem ofBits_inf : Ideal.ofBits .f32 0x7F800000#32 = (⊤ : EReal) := by
  simp [Ideal.ofBits, Ideal.ieee]

/-- One value: if the bit (|x| < +∞) is 1 then x is a real number. -/
theorem isReal_of_abs_lt_inf (x : Ideal .f32)
    (h : FloatOps.cmpf .olt (FloatOps.hostAbsf x) (FloatOps.ofBits (F := Ideal) .f32 0x7F800000#32) = 1#1) :
    LibFinite.IsReal x := by
  change Ideal.cmp .olt (max (x : EReal) (-(x : EReal))) (Ideal.ofBits .f32 0x7F800000#32) = 1#1 at h
  rw [ofBits_inf] at h
  unfold Ideal.cmp at h
  induction x using EReal.rec with
  | bot => simp at h
  | coe r => exact ⟨r, rfl⟩
  | top => simp at h

/-- One array, of any shape: if the conjunction over all entries x of the bit (|x| < +∞) is 1, every entry is a
    real number. -/
theorem reals_of_all {S : Shape} {axes : List (Fin S.rank)} (x : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (j : Cert.Pre_finite_inputs.S_.Idx)
    (e : Host.reduce IntOp.andi
          (cmpf .olt (Host.absf x)
            (broadcastInDim S ![] hb (constant Cert.Pre_finite_inputs.S_ .f32 0x7F800000#32)))
          (constantI Cert.Pre_finite_inputs.S_ 1 1#1) hr hu j = 1#1) :
    ∀ i, LibFinite.IsReal (x i) := fun i =>
  isReal_of_abs_lt_inf (x i) (Host.reduce_andi_all _ _ hr hu j e i)

/-- The precondition decoded: if the conjunction of the six "all entries finite" bits is 1, then every entry of every
    one of the six input arrays is a real number. -/
theorem reals_of_pre [Cert.Pre_finite_inputs.Facts]
    (a0 : FVec Ideal Cert.Pre_finite_inputs.S4x4096x4096 .f32) (a1 : FVec Ideal Cert.Pre_finite_inputs.S4096x4096 .f32)
    (a2 : FVec Ideal Cert.Pre_finite_inputs.S4096 .f32) (a3 : FVec Ideal Cert.Pre_finite_inputs.S64x64 .f32)
    (a4 : FVec Ideal Cert.Pre_finite_inputs.S64x4 .f32) (a5 : FVec Ideal Cert.Pre_finite_inputs.S4x64 .f32)
    (h : Cert.Pre_finite_inputs.fn (F := Ideal) a0 a1 a2 a3 a4 a5 = fun _ => 1#1) :
    (∀ i, LibFinite.IsReal (a0 i)) ∧ (∀ i, LibFinite.IsReal (a1 i)) ∧ (∀ i, LibFinite.IsReal (a2 i))
      ∧ (∀ i, LibFinite.IsReal (a3 i)) ∧ (∀ i, LibFinite.IsReal (a4 i)) ∧ (∀ i, LibFinite.IsReal (a5 i)) := by
  -- the result has one index; read the claim there
  have e := congrFun h ValueIdx.ix0
  dsimp only [Cert.Pre_finite_inputs.fn, Cert.Pre_finite_inputs.fn_part1] at e
  -- a conjunction of bits is 1 exactly when each of them is
  simp only [andi, IntOp.andi_eq_one] at e
  obtain ⟨⟨⟨⟨⟨h0, h1⟩, h2⟩, h3⟩, h4⟩, h5⟩ := e
  exact ⟨reals_of_all a0 _ _ _ _ h0, reals_of_all a1 _ _ _ _ h1, reals_of_all a2 _ _ _ _ h2,
    reals_of_all a3 _ _ _ _ h3, reals_of_all a4 _ _ _ _ h4, reals_of_all a5 _ _ _ _ h5⟩

end Cert.Hand.Finite

end
-- ==== Proof.lean ====
/-
  The five claims about the LoKr linear layer  out = x · (W0 + Δ)ᵀ + bias,  Δ = ¼ · kron(w1, w2a · w2b):

  * the three programs run to completion without fault and leave their arguments unchanged (the kernel's two frames are
    generated; the reference's is its generated run with the result dropped);
  * the kernel's idealization rewrote nothing, so there is nothing to preserve;
  * at the ideal instance, under the precondition that every input entry is finite, the kernel and the reference end
    with equal results.  The kernel flattens x to [16384, 4096], forms W0 + Δ once, and accumulates
    x · (W0 + Δ)ᵀ over four contraction blocks of 1024 into an output block that stays in place, starting from zero and
    adding the bias after the last block.  The reference computes (x · W0ᵀ + bias) + x · Δᵀ with two whole contractions.
    Entry by entry both are finite sums of products of real numbers (Δ's entries are products and four-term sums of
    real entries and the constant ¼), so splitting the sum over 4096 = 4 · 1024 entries into its blocks and
    distributing x·(W0 + Δ) = x·W0 + x·Δ — laws of the real numbers that fail at ±∞, which is where the precondition is
    used — turns one side into the other.
-/
import proofs.«126632_j86646670229807_2_alg».proof.Defs
import proofs.«126632_j86646670229807_2_alg».proof.Proof.Gen.Kernel
import proofs.«126632_j86646670229807_2_alg».proof.Proof.Gen.Kernel.Skeleton
import proofs.«126632_j86646670229807_2_alg».proof.Proof.Gen.Kernel.Launch
import proofs.«126632_j86646670229807_2_alg».proof.Proof.Gen.Kernel.Points
import proofs.«126632_j86646670229807_2_alg».proof.Proof.Gen.Kernel.Frame
import proofs.«126632_j86646670229807_2_alg».proof.Proof.Gen.KernelIdeal
import proofs.«126632_j86646670229807_2_alg».proof.Proof.Gen.KernelIdeal.Skeleton
import proofs.«126632_j86646670229807_2_alg».proof.Proof.Gen.KernelIdeal.Launch
import proofs.«126632_j86646670229807_2_alg».proof.Proof.Gen.KernelIdeal.Points
import proofs.«126632_j86646670229807_2_alg».proof.Proof.Gen.KernelIdeal.Frame
import proofs.«126632_j86646670229807_2_alg».proof.Proof.Gen.ReferenceIdeal
import proofs.«126632_j86646670229807_2_alg».proof.Proof.Gen.Pre_finite_inputs
import proofs.«126632_j86646670229807_2_alg».proof.Proof.Gen.ReferenceIdeal.Run
import proofs.«126632_j86646670229807_2_alg».proof.Proof.Gen.ReferenceIdeal.Read
import proofs.«126632_j86646670229807_2_alg».proof.Proof.KernelValue
import proofs.«126632_j86646670229807_2_alg».proof.Proof.RefSide
import proofs.«126632_j86646670229807_2_alg».proof.Proof.Finite
import proofs.«126632_j86646670229807_2_alg».proof.Proof.Algebra
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal := trivial

/-- The scaled Kronecker term is the same function of the three small factors in both programs: the same operations
    in the same order. -/
theorem delta_same (x3 : FVec Ideal Cert.KernelIdeal.S64x64 .f32) (x4 : FVec Ideal Cert.KernelIdeal.S64x4 .f32) (x5 : FVec Ideal Cert.KernelIdeal.S4x64 .f32) :
    Cert.KernelIdeal.Acc.deltaW (F := Ideal) x3 x4 x5 = Cert.ReferenceIdeal.Read.val_main_v7 (F := Ideal) x3 x4 x5 := rfl

/-- THE BRIDGE: on finite inputs the kernel's result is the reference's, entry by entry. -/
theorem bridge (m : (ℓ : Loc Cert.KernelIdeal.nD Cert.KernelIdeal.τ Cert.KernelIdeal.sig) → Buf (Elt Ideal) ℓ) (c : Dev Cert.KernelIdeal.nD)
    (hpre : Cert.Pre_finite_inputs.fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) = fun _ => 1#1) :
    Cert.ReferenceIdeal.Read.val_main_v9 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      = Cert.KernelIdeal.Acc.kernelOut m c := by
  obtain ⟨r0, r1, r2, r3, r4, r5⟩ := Cert.Hand.Finite.reals_of_pre _ _ _ _ _ _ hpre
  funext i
  obtain ⟨b, s, o, rfl⟩ : ∃ (b : Fin 4) (s : Fin 4096) (o : Fin 4096), i = ix3 b s o := ⟨i 0, i 1, i 2, eq_ix3 i⟩
  rw [Cert.Hand.RefSide.ref_apply, Cert.KernelIdeal.Acc.kernel_apply m c b s o]
  refine (Cert.Hand.Algebra.chain_eq _ _ _ _ (fun k => r0 _) (fun k => r1 _) (fun k => ?_) (r2 _)).symm
  show LibFinite.IsReal (Cert.KernelIdeal.Acc.deltaW (F := Ideal) _ _ _ _)
  rw [delta_same]
  exact Cert.Hand.RefSide.delta_real _ _ _ r3 r4 r5 _

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Acc.kernelOut m c, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, (hagree c).1, (hagree c).2.1, (hagree c).2.2.1, (hagree c).2.2.2.1,
    (hagree c).2.2.2.2.1, (hagree c).2.2.2.2.2]
  exact bridge m c (hpre c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
